-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_

variable [Facts]

def fn {F : FTy → Type} [FloatOps F] (main_arg0 : FVec F S4x2048x4096 .f32) (main_arg1 : IVec S4096x4096 1) (main_arg2 : FVec F S_ .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8192x4096 : Shape := ⟨2, ![8192, 4096]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 19
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i1⟩
  | .hbm, ⟨2, _⟩ => ⟨S_, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S8192x4096, .f32⟩
  | .hbm, ⟨16, _⟩ => ⟨S4096x4096, .i32⟩
  | .hbm, ⟨17, _⟩ => ⟨S8192x4096, .f32⟩
  | .hbm, ⟨18, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .i32⟩
  | .local _ .vmem, ⟨3, _⟩ => ⟨S1024x2048, .i32⟩
  | .local _ .vmem, ⟨4, _⟩ => ⟨S1024x1, .f32⟩
  | .local _ .vmem, ⟨5, _⟩ => ⟨S1024x1, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096 : S_.BroadcastsInDim S4096 (![] : Fin 0 → Fin S4096.rank)
  shapeCasts_S4096_S4096x1 : S4096.ShapeCasts S4096x1
  shapeCasts_S4x2048x4096_S8192x4096 : S4x2048x4096.ShapeCasts S8192x4096
  natLt_1_32 : 1 < 32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  shapeCasts_S8192x4096_S4x2048x4096 : S8192x4096.ShapeCasts S4x2048x4096
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .i32 = 32 ∨ (Rect.block (s := S4096x4096) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4x2048x3277 : Shape := ⟨3, ![4, 2048, 3277]⟩
abbrev S4x2048x819 : Shape := ⟨3, ![4, 2048, 819]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i1⟩
  | .hbm, ⟨2, _⟩ => ⟨S_, .f32⟩
  | .hbm, ⟨3, _⟩ => ⟨S4x2048x3277, .f32⟩
  | .hbm, ⟨4, _⟩ => ⟨S4x2048x819, .f32⟩
  | .hbm, ⟨5, _⟩ => ⟨S_, .f32⟩
  | .hbm, ⟨6, _⟩ => ⟨S4x2048x819, .f32⟩
  | .hbm, ⟨7, _⟩ => ⟨S4x2048x819, .f32⟩
  | .hbm, ⟨8, _⟩ => ⟨S4x2048x4096, .f32⟩
  | .hbm, ⟨9, _⟩ => ⟨S4096x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  slices_S4x2048x4096_S4x2048x3277_0_0_0 : S4x2048x4096.Slices ![0, 0, 0] S4x2048x3277
  slices_S4x2048x4096_S4x2048x819_0_0_3277 : S4x2048x4096.Slices ![0, 0, 3277] S4x2048x819
  bcast_S_S4x2048x819 : S_.BroadcastsInDim S4x2048x819 (![] : Fin 0 → Fin S4x2048x819.rank)
  concatenates_S4x2048x3277_S4x2048x819_S4x2048x4096_d2 : Shape.Concatenates [S4x2048x3277, S4x2048x819] S4x2048x4096 2
  bcast_S_S4x2048x4096 : S_.BroadcastsInDim S4x2048x4096 (![] : Fin 0 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.Spec.lean ====
/-
  The result of the masked, sign-split matrix product as a function of the three argument arrays, index by
  index, on the extended reals, in the two arrangements the two programs compute.

  Input channel `k` of the 4096 carries the factor `chan k`: the word for 1 on the first 3277 channels (the
  excitatory ones), the word for -4 on the remaining 819 (the inhibitory ones). The connectivity mask is a bit per
  (channel, feature) pair. With `x` the activations, `kern` the mask and `sc` the scalar scale:

  * `refAt`: the scale times the sum over all 4096 channels of the sign-split activation (the activation itself on
    an excitatory channel, -4 times it on an inhibitory one) times the mask bit read as the number 0 or 1;
  * `kerAt`: the sum over the four blocks of 1024 channels, and inside a block over its channels, of the activation
    times the masked weight — the channel's factor times the scale where the mask bit is set, the zero word elsewhere.
-/
import Idealize.ShloMosaic.PureOps.Ideal
import Idealize.ShloMosaic.Lib.ValueIdx

noncomputable section

namespace Cert.EiMatmul

open Idealize.ShloMosaic Idealize.ShloMosaic.ValueIdx

/-- The activations' shape, which is also the result's. -/
abbrev SX : Shape := ⟨3, ![4, 2048, 4096]⟩
/-- The mask's shape: input channels by output features. -/
abbrev SK : Shape := ⟨2, ![4096, 4096]⟩
/-- The scale's shape: a scalar. -/
abbrev S0 : Shape := ⟨0, ![]⟩

/-- The word for 1. -/
abbrev wOne : EReal := Ideal.ofBits .f32 0x3F800000#32
/-- The word for -4. -/
abbrev wNegFour : EReal := Ideal.ofBits .f32 0xC0800000#32
/-- The zero word. -/
abbrev wZero : EReal := Ideal.ofBits .f32 0x00000000#32

/-- Channel `q` of block `kb` of the contraction axis: `1024 · kb + q`. -/
abbrev chanOf (kb : Fin 4) (q : Fin 1024) : Fin 4096 := ⟨1024 * kb.val + q.val, by omega⟩

/-- The factor an input channel carries: 1 on an excitatory channel, -4 on an inhibitory one. -/
def chan (k : Fin 4096) : EReal := if k.val < 3277 then wOne else wNegFour

/-- The reference's arrangement at the result index `(b, s, f)`. -/
def refAt (x : SX.Idx → EReal) (kern : SK.Idx → BitVec 1) (sc : S0.Idx → EReal) (b : Fin 4) (s : Fin 2048) (f : Fin 4096) : EReal :=
  sc ix0 * ∑ k : Fin 4096,
    (if k.val < 3277 then x (ix3 b s k) else wNegFour * x (ix3 b s k)) * (((kern (ix2 k f)).toNat : ℝ) : EReal)

/-- The kernel's arrangement at the result index `(b, s, f)`. -/
def kerAt (x : SX.Idx → EReal) (kern : SK.Idx → BitVec 1) (sc : S0.Idx → EReal) (b : Fin 4) (s : Fin 2048) (f : Fin 4096) : EReal :=
  ∑ kb : Fin 4, ∑ q : Fin 1024,
    x (ix3 b s (chanOf kb q)) * (if kern (ix2 (chanOf kb q) f) = 1#1 then chan (chanOf kb q) * sc ix0 else wZero)

/-- The reference's arrangement as a whole array. -/
def refForm (x : SX.Idx → EReal) (kern : SK.Idx → BitVec 1) (sc : S0.Idx → EReal) : SX.Idx → EReal :=
  fun i => refAt x kern sc (i 0) (i 1) (i 2)

/-- The kernel's arrangement as a whole array. -/
def kerForm (x : SX.Idx → EReal) (kern : SK.Idx → BitVec 1) (sc : S0.Idx → EReal) : SX.Idx → EReal :=
  fun i => kerAt x kern sc (i 0) (i 1) (i 2)

end Cert.EiMatmul

end
-- ==== Proof.Algebra.lean ====
/-
  The algebraic law joining the two arrangements of the masked, sign-split matrix product, on the extended reals,
  for finite data.

  Three ingredients. First, a sum over the 4096 channels is the sum over the four blocks of 1024 channels and, inside
  a block, over its channels: channel `1024 · kb + q` runs through every channel exactly once. Second, the three
  words denote the numbers 1, -4 and 0. Third, when every activation and the scale are real numbers, each summand is
  a real number, so the scale can be pulled through the finite sum: on a channel whose mask bit is set, the
  activation times (the channel's factor times the scale) is the scale times (the sign-split activation times 1); on
  a channel whose mask bit is clear both sides are the scale times zero.
-/
import proofs.«152280_j56779467653691_2_alg».proof.Proof.Spec

noncomputable section

namespace Cert.EiMatmul

open Idealize.ShloMosaic Idealize.ShloMosaic.ValueIdx

/-! ### The three words -/

/-- The zero word denotes `0`. -/
theorem wZero_eq : wZero = 0 := by
  simp [Ideal.ofBits, Ideal.ieee]

/-- The word for 1 denotes `1`. -/
theorem wOne_eq : wOne = 1 := by
  simp [Ideal.ofBits, Ideal.ieee, -EReal.coe_mul]; norm_num

/-- The word for -4 denotes the real `-4`. -/
theorem wNegFour_eq : wNegFour = ((-4 : ℝ) : EReal) := by
  simp [Ideal.ofBits, Ideal.ieee, -EReal.coe_mul]; norm_num

/-! ### Splitting the contraction axis into blocks -/

/-- A channel is a block together with a position inside the block. -/
def blockEquiv : Fin 4 × Fin 1024 ≃ Fin 4096 where
  toFun p := chanOf p.1 p.2
  invFun k := (⟨k.val / 1024, by omega⟩, ⟨k.val % 1024, by omega⟩)
  left_inv := by
    rintro ⟨a, q⟩
    ext
    · show (1024 * a.val + q.val) / 1024 = a.val
      omega
    · show (1024 * a.val + q.val) % 1024 = q.val
      omega
  right_inv := by
    intro k
    ext
    show 1024 * (k.val / 1024) + k.val % 1024 = k.val
    omega

/-- A sum over the 4096 channels, block by block. Holds in any additive commutative monoid. -/
theorem sum_blocks {M : Type*} [AddCommMonoid M] (g : Fin 4096 → M) :
    ∑ k : Fin 4096, g k = ∑ kb : Fin 4, ∑ q : Fin 1024, g (chanOf kb q) := by
  rw [← Fintype.sum_prod_type']
  exact (Fintype.sum_equiv blockEquiv _ _ (fun _ => rfl)).symm

/-! ### Real sums inside the extended reals -/

/-- The inclusion of the reals into the extended reals commutes with finite sums. -/
theorem coe_sum {ι : Type*} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-! ### The law at one result index -/

/-- The two arrangements agree at every result index, for real activations and a real scale. -/
theorem kerAt_eq_refAt (x : SX.Idx → EReal) (kern : SK.Idx → BitVec 1) (sc : S0.Idx → EReal)
    (hx : ∀ i, ∃ r : ℝ, x i = (r : EReal)) (hs : ∃ r : ℝ, sc ix0 = (r : EReal))
    (b : Fin 4) (s : Fin 2048) (f : Fin 4096) :
    kerAt x kern sc b s f = refAt x kern sc b s f := by
  choose xr hxr using hx
  obtain ⟨sr, hsr⟩ := hs
  unfold kerAt refAt
  -- the block-by-block sum is the sum over all channels
  refine (sum_blocks (fun k : Fin 4096 =>
    x (ix3 b s k) * (if kern (ix2 k f) = 1#1 then chan k * sc ix0 else wZero))).symm.trans ?_
  -- the real number each reference summand denotes
  obtain ⟨t, ht⟩ : ∃ t : Fin 4096 → ℝ, ∀ k, t k =
      (if k.val < 3277 then xr (ix3 b s k) else -4 * xr (ix3 b s k)) * ((kern (ix2 k f)).toNat : ℝ) :=
    ⟨_, fun _ => rfl⟩
  have h0 : (((0#1 : BitVec 1).toNat : ℝ)) = 0 := by norm_num
  have h1 : (((1#1 : BitVec 1).toNat : ℝ)) = 1 := by norm_num
  have hne : ¬ ((0#1 : BitVec 1) = 1#1) := by decide
  have hG : ∀ k : Fin 4096,
      x (ix3 b s k) * (if kern (ix2 k f) = 1#1 then chan k * sc ix0 else wZero)
        = ((sr * t k : ℝ) : EReal) := by
    intro k
    rw [hxr, hsr, wZero_eq, ht]
    unfold chan
    rw [wOne_eq, wNegFour_eq]
    rcases BitVec.eq_zero_or_eq_one (kern (ix2 k f)) with h | h
    · -- mask bit clear: both sides are zero
      rw [h, if_neg hne, h0, mul_zero, mul_zero, mul_zero, EReal.coe_zero]
    · -- mask bit set
      rw [h, if_pos rfl, h1, mul_one]
      by_cases hk : k.val < 3277
      · rw [if_pos hk, if_pos hk, one_mul, ← EReal.coe_mul, mul_comm]
      · rw [if_neg hk, if_neg hk, ← EReal.coe_mul, ← EReal.coe_mul]
        congr 1
        ring
  have hR : ∀ k : Fin 4096,
      (if k.val < 3277 then x (ix3 b s k) else wNegFour * x (ix3 b s k))
          * (((kern (ix2 k f)).toNat : ℝ) : EReal)
        = ((t k : ℝ) : EReal) := by
    intro k
    rw [ht, wNegFour_eq, hxr]
    by_cases hk : k.val < 3277
    · rw [if_pos hk, if_pos hk, ← EReal.coe_mul]
    · rw [if_neg hk, if_neg hk, ← EReal.coe_mul, ← EReal.coe_mul]
  rw [Finset.sum_congr rfl (fun k _ => hG k), Finset.sum_congr rfl (fun k _ => hR k), hsr,
    ← coe_sum, ← coe_sum, ← EReal.coe_mul, Finset.mul_sum]

/-! ### The law for whole arrays -/

/-- The two arrangements are the same array, for real activations and a real scale. -/
theorem kerForm_eq_refForm (x : SX.Idx → EReal) (kern : SK.Idx → BitVec 1) (sc : S0.Idx → EReal)
    (hx : ∀ i, ∃ r : ℝ, x i = (r : EReal)) (hs : ∃ r : ℝ, sc ix0 = (r : EReal)) :
    kerForm x kern sc = refForm x kern sc := by
  funext i
  exact kerAt_eq_refAt x kern sc hx hs (i 0) (i 1) (i 2)

end Cert.EiMatmul

end
-- ==== Proof.RefSide.lean ====
/-
  Two facts about the reference program and the precondition.

  `ref_eq`: the reference's result, read stage by stage, is `refForm`: the scale times the sum over the 4096 channels
  of the sign-split activation times the mask bit as a number. The joined left operand of the product reads, at a
  channel below 3277, the activation itself (the first slice), and at a channel from 3277 on the word for -4 times the
  activation (the second slice, scaled).

  `finite_of_pre`: the precondition says that every activation and the scale lie strictly below +∞ in absolute value,
  so each of them is a real number.
-/
import proofs.«152280_j56779467653691_2_alg».proof.Proof.Spec
import proofs.«152280_j56779467653691_2_alg».proof.Proof.Gen.ReferenceIdeal.Read
import proofs.«152280_j56779467653691_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.EiMatmul

open Idealize.ShloMosaic Idealize.ShloMosaic.ValueIdx
open Cert.ReferenceIdeal (S4x2048x4096 S4096x4096 S_ S4x2048x3277 S4x2048x819)

/-- The joined left operand at `(b, s, k)`: the activation itself on the first 3277 channels, the word for -4 times
    the activation on the remaining ones. -/
theorem joined_read (x : (⟨S4x2048x4096, .f32⟩ : BufTy).Contents (Elt Ideal)) (b : Fin 4) (s : Fin 2048) (k : Fin 4096) :
    Cert.ReferenceIdeal.Read.val_main_v4 (F := Ideal) x (ix3 b s k)
      = if k.val < 3277 then x (ix3 b s k) else wNegFour * x (ix3 b s k) := by
  unfold Cert.ReferenceIdeal.Read.val_main_v4
  by_cases hk : k.val < 3277
  · rw [if_pos hk]
    refine (concatenate_pair_apply_left (t := S4x2048x4096) (s₁ := S4x2048x3277) (s₂ := S4x2048x819) (2 : Fin 3) _ _ _ (ix3 b s k) rfl (ix3 b s (⟨k.val, hk⟩ : Fin 3277)) ?_).trans ?_
    · intro a
      match a with
      | ⟨0, _⟩ => rfl
      | ⟨1, _⟩ => rfl
      | ⟨2, _⟩ => rfl
    · rw [Cert.ReferenceIdeal.Read.val_main_v0_apply]
      congr 1
      funext a
      match a with
      | ⟨0, _⟩ => rfl
      | ⟨1, _⟩ => rfl
      | ⟨2, _⟩ => rfl
  · rw [if_neg hk]
    have hk' : k.val - 3277 < 819 := by have := k.isLt; omega
    refine (concatenate_pair_apply_right (t := S4x2048x4096) (s₁ := S4x2048x3277) (s₂ := S4x2048x819) (2 : Fin 3) _ _ _ (ix3 b s k) rfl rfl (ix3 b s (⟨k.val - 3277, hk'⟩ : Fin 819)) ?_ ?_).trans ?_
    · intro a ha
      match a with
      | ⟨0, _⟩ => rfl
      | ⟨1, _⟩ => rfl
      | ⟨2, _⟩ => exact absurd rfl ha
    · show (k.val - 3277) + 3277 = k.val
      omega
    · rw [Cert.ReferenceIdeal.Read.val_main_v3_apply, Cert.ReferenceIdeal.Read.val_main_v2_apply,
        Cert.ReferenceIdeal.Read.val_main_cst_apply, Cert.ReferenceIdeal.Read.val_main_v1_apply, Ideal.mulf_def, Ideal.ofBits_def]
      congr 2
      funext a
      match a with
      | ⟨0, _⟩ => rfl
      | ⟨1, _⟩ => rfl
      | ⟨2, _⟩ => exact Fin.ext (by show 3277 + (k.val - 3277) = k.val; omega)

theorem ref_eq (x : (⟨Cert.ReferenceIdeal.S4x2048x4096, .f32⟩ : BufTy).Contents (Elt Ideal))
    (kern : (⟨Cert.ReferenceIdeal.S4096x4096, .i1⟩ : BufTy).Contents (Elt Ideal))
    (sc : (⟨Cert.ReferenceIdeal.S_, .f32⟩ : BufTy).Contents (Elt Ideal)) :
    Cert.ReferenceIdeal.Read.val_main_v8 (F := Ideal) x kern sc = refForm x kern sc := by
  funext i
  obtain ⟨b, s, f, rfl⟩ : ∃ (b : Fin 4) (s : Fin 2048) (f : Fin 4096), i = ValueIdx.ix3 b s f :=
    ⟨i 0, i 1, i 2, ValueIdx.eq_ix3 i⟩
  show _ = refAt x kern sc b s f
  unfold refAt
  rw [Cert.ReferenceIdeal.Read.val_main_v8_apply, Cert.ReferenceIdeal.Read.val_main_v7_apply,
    Cert.ReferenceIdeal.Read.val_main_v6_apply, Ideal.mulf_def]
  congr 1
  refine Finset.sum_congr rfl fun k _ => ?_
  rw [Cert.ReferenceIdeal.Read.val_main_v5_apply]
  have e1 : Cert.ReferenceIdeal.Read.lidx_main_v6 (ix3 b s f) k = ix3 b s k := by
    funext a
    match a with
    | ⟨0, _⟩ => rfl
    | ⟨1, _⟩ => rfl
    | ⟨2, _⟩ => rfl
  have e2 : Cert.ReferenceIdeal.Read.ridx_main_v6 (ix3 b s f) k = ix2 k f := by
    funext a
    match a with
    | ⟨0, _⟩ => rfl
    | ⟨1, _⟩ => rfl
  rw [e1, e2, joined_read]
  rfl

/-- The word `0x7F800000` is +∞. -/
theorem wInf_eq_top : Ideal.ofBits .f32 0x7F800000#32 = (⊤ : EReal) := by simp [Ideal.ofBits, Ideal.ieee]

/-- An extended real whose absolute value compares strictly below +∞ is a real number. -/
theorem real_of_abs_lt_inf (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  have h' : Ideal.cmp .olt (max a (-a)) (⊤ : EReal) = 1#1 := by rw [← wInf_eq_top]; exact h
  unfold Ideal.cmp at h'
  have hlt : max a (-a) < ⊤ := by
    by_contra hn
    simp [hn] at h'
  induction a using EReal.rec with
  | bot => simp at hlt
  | coe r => exact ⟨r, rfl⟩
  | top => simp at hlt

theorem finite_of_pre (x : FVec Ideal Cert.Pre_finite_inputs.S4x2048x4096 .f32) (kern : IVec Cert.Pre_finite_inputs.S4096x4096 1)
    (sc : FVec Ideal Cert.Pre_finite_inputs.S_ .f32)
    (h : Cert.Pre_finite_inputs.fn (F := Ideal) x kern sc = (fun _ => 1#1)) :
    (∀ i, ∃ r : ℝ, x i = (r : EReal)) ∧ (∃ r : ℝ, sc ix0 = (r : EReal)) := by
  have h0 := congrFun h ValueIdx.ix0
  dsimp only [Cert.Pre_finite_inputs.fn] at h0
  obtain ⟨h1, h2⟩ := IntOp.andi_eq_one.1 h0
  haveI : Subsingleton Cert.Pre_finite_inputs.S_.Idx := ⟨fun a b => funext fun d => d.elim0⟩
  refine ⟨fun i => ?_, ?_⟩
  · have e := Host.reduce_andi_all _ _ _ _ _ h1 i
    exact real_of_abs_lt_inf (x i) e
  · have e := Host.reduce_andi_all _ _ _ _ _ h2 ix0
    exact real_of_abs_lt_inf (sc ix0) e

end Cert.EiMatmul

end
-- ==== Proof.Pieces.lean ====
/-
  What one grid point's body leaves behind, as values. The body keeps a running block in its accumulator: at the
  first point of the contraction axis it stores the zero block and then the zero block plus this point's product;
  at every later point it stores what the point before left plus this point's product; at the last point it also
  copies the accumulator into the output block. Each statement below says that what a case leaves in the
  accumulator (or in the output block) is the body's one arithmetic term `k0_pay2` of the point's three input
  blocks and of the accumulator's previous contents, for any float interpretation.
-/
import proofs.«152280_j56779467653691_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A middle point of the contraction axis: the accumulator ends at the previous contents plus the product. -/
theorem scratch_B (c : Dev nD) (i : grid0.Coords) (arg3 : Memref sig .tc .vmem S1024x1024 .f32) (harg3 : arg3.IsWhole) (arg4 : Memref sig .tc .vmem S1024x2048 .i32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x1024 .f32) (x1 : Vec F S1024x2048 .i32) (x2 : Vec F S1024x1 .f32) (xs0 : Vec F S1024x2048 .f32) :
    sout0_B_0 c i arg3 harg3 arg4 harg4 arg5 harg5 arg6 harg6 arg7 harg7 hc0 hc1 x0 x1 x2 xs0 = k0_pay2 x0 x2 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg5.read_unread, harg7.read_unread, View.ld_unit_zero (S := S1024x1024) hz, View.ld_unit_zero (S := S1024x2048) hz, View.ld_unit_zero (S := S1024x1) hz]

/-- The last point of the contraction axis: the accumulator ends at the previous contents plus the product, -/
theorem scratch_C (c : Dev nD) (i : grid0.Coords) (arg3 : Memref sig .tc .vmem S1024x1024 .f32) (harg3 : arg3.IsWhole) (arg4 : Memref sig .tc .vmem S1024x2048 .i32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .f32) (x1 : Vec F S1024x2048 .i32) (x2 : Vec F S1024x1 .f32) (xs0 : Vec F S1024x2048 .f32) :
    sout0_C_0 c i arg3 harg3 arg4 harg4 arg5 harg5 arg6 harg6 arg7 harg7 hc0 hc1 x0 x1 x2 xs0 = k0_pay2 x0 x2 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1024x2048) hz, View.ld_unit_zero (S := S1024x1) hz]

/-- and the output block is a copy of it. -/
theorem out_C (c : Dev nD) (i : grid0.Coords) (arg3 : Memref sig .tc .vmem S1024x1024 .f32) (harg3 : arg3.IsWhole) (arg4 : Memref sig .tc .vmem S1024x2048 .i32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .f32) (x1 : Vec F S1024x2048 .i32) (x2 : Vec F S1024x1 .f32) (xs0 : Vec F S1024x2048 .f32) :
    out0_C_3 c i arg3 harg3 arg4 harg4 arg5 harg5 arg6 harg6 arg7 harg7 hc0 hc1 x0 x1 x2 xs0 = k0_pay2 x0 x2 x1 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x2048) _ hz]
  simp only [View.readAt_eq_ld, harg3.read_unread, harg4.read_unread, harg5.read_unread, harg7.read_unread, View.ld_unit_zero (S := S1024x1024) hz, View.ld_unit_zero (S := S1024x2048) hz, View.ld_unit_zero (S := S1024x1) hz]

/-- The first point of the contraction axis: the accumulator ends at the zero block plus the product. -/
theorem scratch_A (c : Dev nD) (i : grid0.Coords) (arg3 : Memref sig .tc .vmem S1024x1024 .f32) (harg3 : arg3.IsWhole) (arg4 : Memref sig .tc .vmem S1024x2048 .i32) (harg4 : arg4.IsWhole) (arg5 : Memref sig .tc .vmem S1024x1 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x1024 .f32) (x1 : Vec F S1024x2048 .i32) (x2 : Vec F S1024x1 .f32) :
    sout0_A_0 c i arg3 harg3 arg4 harg4 arg5 harg5 arg6 harg6 arg7 harg7 hc0 hc1 x0 x1 x2 = k0_pay2 x0 x2 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg7.read_unread, View.ld_unit_zero (S := S1024x1024) hz, View.ld_unit_zero (S := S1024x2048) hz, View.ld_unit_zero (S := S1024x1) hz]

end Cert.KernelIdeal.Pieces

end
-- ==== Proof.Payload.lean ====
/-
  The body's arithmetic at one entry, on the extended reals. With `x` the block of activations, `e` the block's
  column of channel weights, `b` the block of the mask (a word per entry, nonzero where the mask is set) and `acc`
  the accumulator's previous contents, entry `(r, s)` of what the body stores is

      acc (r, s) + ∑ q, x (r, q) · (if b (q, s) ≠ 0 then e (q, 0) else 0-word):

  the two changes of float format are the identity on the extended reals, the casts to the same shape are the
  identity, the column of weights is repeated along the feature axis, and a matrix product into a zero accumulator
  is the plain sum over the contracted axis.
-/
import proofs.«152280_j56779467653691_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The masked weight block at entry `(q, s)`: the channel's weight where the mask word is nonzero, the zero word elsewhere. -/
theorem weight_apply (x1 : Vec Ideal S1024x2048 .i32) (x2 : Vec Ideal S1024x1 .f32) (z : Ideal .f32)
    (h1 : S1024x1.ShapeCasts S1024x1) (hb : S1024x1.Broadcasts S1024x2048) (ht : FTy.bits .bf16 < FTy.bits .f32)
    (q : Fin 1024) (s : Fin 2048) :
    (truncf .bf16 (select (cmpi .ne x1 (constantI S1024x2048 32 0#32))
        (broadcastTo S1024x2048 (shapeCast S1024x1 (shapeCast S1024x1 x2 h1) h1) hb)
        (broadcastTo S1024x2048 (shapeCast S1024x1 (broadcast S1024x1 z) h1) hb)) ht : FVec Ideal S1024x2048 .bf16) (ix2 q s)
      = Scalar.select (IntOp.cmpi .ne (x1 (ix2 q s)) 0#32) (x2 (ix2 q (0 : Fin 1))) z := by
  show Scalar.select (IntOp.cmpi .ne (x1 (ix2 q s)) 0#32)
      (broadcastTo S1024x2048 (shapeCast S1024x1 (shapeCast S1024x1 x2 h1) h1) hb (ix2 q s))
      (broadcastTo S1024x2048 (shapeCast S1024x1 (broadcast S1024x1 z) h1) hb (ix2 q s)) = _
  rw [shapeCast_self, shapeCast_self, shapeCast_self]
  have e1 : broadcastTo S1024x2048 x2 hb (ix2 q s) = x2 (ix2 q (0 : Fin 1)) :=
    broadcastTo_apply x2 hb (ix2 q s) (ix2 q (0 : Fin 1)) (fun a => by
      match a with
      | ⟨0, _⟩ => show q.val = if (1024 : ℕ) = 1 then 0 else q.val; rw [if_neg (by decide)]
      | ⟨1, _⟩ => show (0 : ℕ) = if (1 : ℕ) = 1 then 0 else s.val; rw [if_pos rfl])
  rw [e1]
  rfl

/-- Row `r` of the left operand at contracted position `k`. -/
theorem lhs0 (i : S1024x2048.Idx) (k : dot_S1024x1024_S1024x2048_S1024x2048_1_0_0_1_n_n.contr.Idx) :
    (dot_S1024x1024_S1024x2048_S1024x2048_1_0_0_1_n_n.lhsIdx i k 0).val = (i 0).val := by
  unfold DotDims.lhsIdx
  rw [dif_neg (show ¬(0 : Fin S1024x1024.rank) ∈ dot_S1024x1024_S1024x2048_S1024x2048_1_0_0_1_n_n.lhsBatch by decide),
    dif_pos (show (0 : Fin S1024x1024.rank) ∈ dot_S1024x1024_S1024x2048_S1024x2048_1_0_0_1_n_n.lhsNonContracting by decide)]
  rfl

/-- Column `s` of the right operand at contracted position `k`. -/
theorem rhs1 (i : S1024x2048.Idx) (k : dot_S1024x1024_S1024x2048_S1024x2048_1_0_0_1_n_n.contr.Idx) :
    (dot_S1024x1024_S1024x2048_S1024x2048_1_0_0_1_n_n.rhsIdx i k 1).val = (i 1).val := by
  unfold DotDims.rhsIdx
  rw [dif_neg (show ¬(1 : Fin S1024x2048.rank) ∈ dot_S1024x1024_S1024x2048_S1024x2048_1_0_0_1_n_n.rhsBatch by decide),
    dif_pos (show (1 : Fin S1024x2048.rank) ∈ dot_S1024x1024_S1024x2048_S1024x2048_1_0_0_1_n_n.rhsNonContracting by decide)]
  rfl

/-- The block product into a zero accumulator at entry `(r, s)`: the sum over the block's 1024 channels. -/
theorem product_apply (lhs : FVec Ideal S1024x1024 .bf16) (rhs : FVec Ideal S1024x2048 .bf16) (r : Fin 1024) (s : Fin 2048) :
    matmul dot_S1024x1024_S1024x2048_S1024x2048_1_0_0_1_n_n none lhs rhs (constant (F := Ideal) S1024x2048 .f32 0x00000000#32) (ix2 r s)
      = ∑ q : Fin 1024, lhs (ix2 r q) * rhs (ix2 q s) := by
  simp only [matmul]
  rw [Ideal.matmul_constant_zero_apply, ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 r s) ((contrEquiv1 dot_S1024x1024_S1024x2048_S1024x2048_1_0_0_1_n_n 1024 rfl rfl).symm k) = ix2 r k :=
    funext fun a => Fin.ext (by
      match a with
      | ⟨0, _⟩ => exact lhs0 _ _
      | ⟨1, _⟩ => exact (dot_S1024x1024_S1024x2048_S1024x2048_1_0_0_1_n_n.lhsIdx_val_of_single rfl _ _).trans hk)
  have er : dot_S1024x1024_S1024x2048_S1024x2048_1_0_0_1_n_n.rhsIdx (ix2 r s) ((contrEquiv1 dot_S1024x1024_S1024x2048_S1024x2048_1_0_0_1_n_n 1024 rfl rfl).symm k) = ix2 k s :=
    funext fun a => Fin.ext (by
      match a with
      | ⟨0, _⟩ => exact (dot_S1024x1024_S1024x2048_S1024x2048_1_0_0_1_n_n.rhsIdx_val_of_single rfl _ _).trans hk
      | ⟨1, _⟩ => exact rhs1 _ _)
  rw [el, er]

/-- What the body stores, at entry `(r, s)`. -/
theorem pay2_apply (x0 : Vec Ideal S1024x1024 .f32) (x2 : Vec Ideal S1024x1 .f32) (x1 : Vec Ideal S1024x2048 .i32)
    (acc : Vec Ideal S1024x2048 .f32) (r : Fin 1024) (s : Fin 2048) :
    k0_pay2 (F := Ideal) x0 x2 x1 acc (ix2 r s)
      = acc (ix2 r s) + ∑ q : Fin 1024, x0 (ix2 r q)
          * Scalar.select (IntOp.cmpi .ne (x1 (ix2 q s)) 0#32) (x2 (ix2 q (0 : Fin 1))) (Ideal.ofBits .f32 0x00000000#32) := by
  unfold k0_pay2
  rw [shapeCast_self]
  show acc (ix2 r s) + _ = _
  refine congrArg (acc (ix2 r s) + ·) ?_
  rw [product_apply]
  refine Finset.sum_congr rfl fun q _ => ?_
  rw [weight_apply, shapeCast_self]
  rfl

/-- The zero block the first point stores, at any entry. -/
theorem pay1_apply (j : S1024x2048.Idx) : k0_pay1 (F := Ideal) j = Ideal.ofBits .f32 0x00000000#32 := by
  unfold k0_pay1
  rw [shapeCast_self]
  rfl

end Cert.KernelIdeal.Payload

end
-- ==== Proof.HostPre.lean ====
/-
  The three arrays the kernel's windows read, as the call finds them, entry by entry, in terms of the program's
  arguments. Before the call the program reshapes the activations [4, 2048, 4096] to rows [8192, 4096]: row
  `2048 · b + s` is the activation row `(b, s)`. It widens each mask bit to a 32-bit word. And it builds the column
  of channel weights [4096, 1]: channel `k` gets the word for 1 when `k < 3277` and the word for -4 otherwise,
  times the scale.
-/
import proofs.«152280_j56779467653691_2_alg».proof.Proof.Gen.KernelIdeal.Frame
import proofs.«152280_j56779467653691_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx Idealize.ShloMosaic.StableHlo

namespace Cert.KernelIdeal.HostPre

open Cert.KernelIdeal Cert.KernelIdeal.Gen Cert.EiMatmul

/-- The signed comparison of a channel number with 3277 is the comparison of the numbers. -/
theorem lt_word : ∀ k : Fin 4096, IntOp.cmpi .slt (BitVec.ofNat 32 k.val) 3277#32 = if k.val < 3277 then 1#1 else 0#1 := by
  decide +kernel

section
variable {F : FTy → Type} [FloatOps F]
variable (m : (ℓ : Loc nD τ sig) → Buf (Elt F) ℓ)

/-- The rows the first window reads are the activations reshaped. -/
theorem rows_eq (c : Dev nD) :
    (V m c main_v7 : S8192x4096.Idx → Elt F .f32)
      = shapeCast S8192x4096 (m ((c : Thread nD τ).loc main_arg0)) Gen.shapeCasts_S4x2048x4096_S8192x4096 := by
  dsimp only [Gen.V, Gen.V0]
  simp only [Gen.hostOps0, Gen.hostOps0_1, Gen.hostOps0_2, List.flatten_cons, List.flatten_nil, List.append_nil, List.cons_append, List.nil_append]
  after_results
  rfl

/-- The words the second window reads are the mask's bits widened. -/
theorem words_eq (c : Dev nD) :
    (V m c main_v8 : S4096x4096.Idx → BitVec 32)
      = extui 32 (m ((c : Thread nD τ).loc main_arg1)) Gen.natLt_1_32 := by
  dsimp only [Gen.V, Gen.V0]
  simp only [Gen.hostOps0, Gen.hostOps0_1, Gen.hostOps0_2, List.flatten_cons, List.flatten_nil, List.append_nil, List.cons_append, List.nil_append]
  after_results

/-- The column the third window reads is the channel weights times the scale, reshaped to a column. -/
theorem column_eq (c : Dev nD) :
    (V m c main_v6 : S4096x1.Idx → Elt F .f32)
      = shapeCast S4096x1 (mulf
          (select (cmpi .slt (iotaInDim S4096 32 0) (broadcastInDim S4096 ![] Gen.bcast_S_S4096 (constantI S_ 32 3277#32)))
            (broadcastInDim S4096 ![] Gen.bcast_S_S4096 (constant (F := F) S_ .f32 0x3F800000#32))
            (broadcastInDim S4096 ![] Gen.bcast_S_S4096 (constant (F := F) S_ .f32 0xC0800000#32)))
          (broadcastInDim S4096 ![] Gen.bcast_S_S4096 (m ((c : Thread nD τ).loc main_arg2)))) Gen.shapeCasts_S4096_S4096x1 := by
  dsimp only [Gen.V, Gen.V0]
  simp only [Gen.hostOps0, Gen.hostOps0_1, Gen.hostOps0_2, List.flatten_cons, List.flatten_nil, List.append_nil, List.cons_append, List.nil_append]
  after_results
  rfl

end

section
variable (m : (ℓ : Loc nD τ sig) → Buf (Elt Ideal) ℓ)

/-- Row `2048 · b + s` at channel `k` is the activation `(b, s, k)`. -/
theorem rows_apply (c : Dev nD) (b : Fin 4) (s : Fin 2048) (k : Fin 4096) (M : Fin 8192) (hM : M.val = 2048 * b.val + s.val) :
    V m c main_v7 (ix2 M k) = m ((c : Thread nD τ).loc main_arg0) (ix3 b s k) := by
  rw [rows_eq]
  refine shapeCast_apply _ _ (ix2 M k) (ix3 b s k) ?_
  rw [Shape.rowMajor_val_three, Shape.rowMajor_val_two]
  show (b.val * 2048 + s.val) * 4096 + k.val = M.val * 4096 + k.val
  rw [hM]; ring

/-- The word at `(k, f)` is the mask bit widened. -/
theorem words_apply (c : Dev nD) (k f : Fin 4096) :
    V m c main_v8 (ix2 k f) = (m ((c : Thread nD τ).loc main_arg1) (ix2 k f)).setWidth 32 := by
  rw [words_eq]
  rfl

/-- The column at channel `k` is the channel's factor times the scale. -/
theorem column_apply (c : Dev nD) (k : Fin 4096) :
    V m c main_v6 (ix2 k (0 : Fin 1)) = chan k * m ((c : Thread nD τ).loc main_arg2) ix0 := by
  rw [column_eq]
  refine (shapeCast_apply _ _ (ix2 k (0 : Fin 1)) (ix1 k) ?_).trans ?_
  · rw [Shape.rowMajor_val_one, Shape.rowMajor_val_two]
    show k.val = k.val * 1 + 0
    omega
  · show Scalar.select (IntOp.cmpi .slt (BitVec.ofNat 32 k.val) (broadcastInDim S4096 ![] Gen.bcast_S_S4096 (constantI S_ 32 3277#32) (ix1 k)))
        (broadcastInDim S4096 ![] Gen.bcast_S_S4096 (constant (F := Ideal) S_ .f32 0x3F800000#32) (ix1 k))
        (broadcastInDim S4096 ![] Gen.bcast_S_S4096 (constant (F := Ideal) S_ .f32 0xC0800000#32) (ix1 k))
      * broadcastInDim S4096 ![] Gen.bcast_S_S4096 (m ((c : Thread nD τ).loc main_arg2)) (ix1 k) = _
    rw [broadcastInDim_apply ![] Gen.bcast_S_S4096 (constantI S_ 32 3277#32) (ix1 k) ix0 (fun a => a.elim0),
      broadcastInDim_apply ![] Gen.bcast_S_S4096 (constant (F := Ideal) S_ .f32 0x3F800000#32) (ix1 k) ix0 (fun a => a.elim0),
      broadcastInDim_apply ![] Gen.bcast_S_S4096 (constant (F := Ideal) S_ .f32 0xC0800000#32) (ix1 k) ix0 (fun a => a.elim0),
      broadcastInDim_apply ![] Gen.bcast_S_S4096 (m ((c : Thread nD τ).loc main_arg2)) (ix1 k) ix0 (fun a => a.elim0)]
    show Scalar.select (IntOp.cmpi .slt (BitVec.ofNat 32 k.val) 3277#32) wOne wNegFour * _ = _
    rw [lt_word k]
    unfold chan
    by_cases h : k.val < 3277
    · rw [if_pos h, if_pos h]; rfl
    · rw [if_neg h, if_neg h]; rfl

end

end Cert.KernelIdeal.HostPre

end
-- ==== Proof.Accum.lean ====
/-
  What the accumulator and the output block hold after each grid point, on the extended reals.

  The grid is 8 row blocks by 2 feature blocks by 4 blocks of the contraction axis, the last one innermost: point
  `t` is row block `t / 8`, feature block `t / 4 % 2`, contraction block `t % 4`. Along the contraction axis the
  accumulator runs through the partial sums of the four block products, starting from the zero block, and at
  contraction block 3 the output block receives the full sum: entry `(r, s)` of it is the kernel's arrangement
  `kerAt` at row `1024 · (t / 8) + r` of the reshaped activations and feature `2048 · (t / 4 % 2) + s`.
-/
import proofs.«152280_j56779467653691_2_alg».proof.Proof.Pieces
import proofs.«152280_j56779467653691_2_alg».proof.Proof.Payload
import proofs.«152280_j56779467653691_2_alg».proof.Proof.HostPre
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.EiMatmul

/-- Row `M` of the activations reshaped to [8192, 4096] is the activation row `(M / 2048, M % 2048)`. -/
abbrev rowB (M : Fin 8192) : Fin 4 := ⟨M.val / 2048, by omega⟩
abbrev rowS (M : Fin 8192) : Fin 2048 := ⟨M.val % 2048, Nat.mod_lt _ (by decide)⟩

/-- One block of 1024 contraction channels of the kernel's arrangement: the products summed over the block. -/
def blockSum (x : SX.Idx → EReal) (kern : SK.Idx → BitVec 1) (sc : S0.Idx → EReal) (b : Fin 4) (s : Fin 2048) (f : Fin 4096)
    (kb : Fin 4) : EReal :=
  ∑ q : Fin 1024,
    x (ix3 b s (chanOf kb q)) * (if kern (ix2 (chanOf kb q) f) = 1#1 then chan (chanOf kb q) * sc ix0 else wZero)

variable (m : (ℓ : Loc nD τ sig) → Buf (Elt Ideal) ℓ)

/-- The kernel's arrangement over the program's three arguments, at row `M` of the reshaped result and feature `f`. -/
def rowsAt (c : Dev nD) (M : Fin 8192) (f : Fin 4096) : EReal :=
  kerAt (m ((c : Thread nD τ).loc main_arg0)) (m ((c : Thread nD τ).loc main_arg1)) (m ((c : Thread nD τ).loc main_arg2)) (rowB M) (rowS M) f

/-- The block of contraction channels a point multiplies: its products summed over the block's 1024 channels, at row
    `M` and feature `f` — one of the four inner sums of the kernel's arrangement. -/
def blockTerm (c : Dev nD) (M : Fin 8192) (f : Fin 4096) (kb : Fin 4) : EReal :=
  blockSum (m ((c : Thread nD τ).loc main_arg0)) (m ((c : Thread nD τ).loc main_arg1)) (m ((c : Thread nD τ).loc main_arg2))
    (rowB M) (rowS M) f kb

/-- The kernel's arrangement is the sum of the four block terms. -/
theorem rowsAt_eq (c : Dev nD) (M : Fin 8192) (f : Fin 4096) : rowsAt m c M f = ∑ kb : Fin 4, blockTerm m c M f kb := rfl

/-- The index maps of the three input windows, decided over the grid: rows follow the row block, channels the
    contraction block, features the feature block. -/
theorem idx_facts : ∀ t : Fin cfg0.N,
    win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_2.index t (0 : Fin 2) = t.val % 4 ∧ win0_2.index t (1 : Fin 2) = 0 :=
  (by decide +kernel : ∀ t : Fin grid0.N, _)

/-- The activations' block at a point, at entry `(r, q)`: row `1024 · (t / 8) + r`, channel `1024 · (t % 4) + q`. -/
theorem iblk0_apply (c : Dev nD) (t : Fin cfg0.N) (r q : Fin 1024) (M : Fin 8192) (k : Fin 4096)
    (hM : M.val = 1024 * (t.val / 8) + r.val) (hk : k.val = 1024 * (t.val % 4) + q.val) :
    iblk m c 0 t (ix2 r q) = V m c main_v7 (ix2 M k) := by
  obtain ⟨e0, e1, -, -, -, -⟩ := idx_facts t
  unfold iblk
  rw [View.read_apply]
  show V m c main_v7 _ = V m c main_v7 _
  refine congrArg (V m c main_v7) (funext fun a => Fin.ext ?_)
  match a with
  | ⟨0, _⟩ => show win0_0.index t (0 : Fin 2) * 1024 + 1 * r.val = M.val; rw [e0, hM]; omega
  | ⟨1, _⟩ => show win0_0.index t (1 : Fin 2) * 1024 + 1 * q.val = k.val; rw [e1, hk]; omega

/-- The mask's block at a point, at entry `(q, s)`: channel `1024 · (t % 4) + q`, feature `2048 · (t / 4 % 2) + s`. -/
theorem iblk1_apply (c : Dev nD) (t : Fin cfg0.N) (q : Fin 1024) (s : Fin 2048) (k f : Fin 4096)
    (hk : k.val = 1024 * (t.val % 4) + q.val) (hf : f.val = 2048 * (t.val / 4 % 2) + s.val) :
    iblk m c 1 t (ix2 q s) = V m c main_v8 (ix2 k f) := by
  obtain ⟨-, -, e0, e1, -, -⟩ := idx_facts t
  unfold iblk
  rw [View.read_apply]
  show V m c main_v8 _ = V m c main_v8 _
  refine congrArg (V m c main_v8) (funext fun a => Fin.ext ?_)
  match a with
  | ⟨0, _⟩ => show win0_1.index t (0 : Fin 2) * 1024 + 1 * q.val = k.val; rw [e0, hk]; omega
  | ⟨1, _⟩ => show win0_1.index t (1 : Fin 2) * 2048 + 1 * s.val = f.val; rw [e1, hf]; omega

/-- The weight column's block at a point, at entry `(q, 0)`: channel `1024 · (t % 4) + q`. -/
theorem iblk2_apply (c : Dev nD) (t : Fin cfg0.N) (q : Fin 1024) (k : Fin 4096)
    (hk : k.val = 1024 * (t.val % 4) + q.val) :
    iblk m c 2 t (ix2 q (0 : Fin 1)) = V m c main_v6 (ix2 k (0 : Fin 1)) := by
  obtain ⟨-, -, -, -, e0, e1⟩ := idx_facts t
  unfold iblk
  rw [View.read_apply]
  show V m c main_v6 _ = V m c main_v6 _
  refine congrArg (V m c main_v6) (funext fun a => Fin.ext ?_)
  match a with
  | ⟨0, _⟩ => show win0_2.index t (0 : Fin 2) * 1024 + 1 * q.val = k.val; rw [e0, hk]; omega
  | ⟨1, _⟩ => show win0_2.index t (1 : Fin 2) * 1 + 1 * (0 : Fin 1).val = (0 : Fin 1).val; rw [e1]; rfl

/-- A mask bit widened to a word and compared with zero selects as the bit itself does. -/
theorem select_bit {α : Type} (b : BitVec 1) (u v : α) :
    Scalar.select (IntOp.cmpi .ne (b.setWidth 32) 0#32) u v = if b = 1#1 then u else v := by
  rcases BitVec.eq_zero_or_eq_one b with h | h <;> subst h <;> rfl

/-- ONE POINT'S STEP: applied to the point's three input blocks and any previous accumulator contents, the body's
    term at entry `(r, s)` is the previous entry plus the point's block term. -/
theorem step_apply (c : Dev nD) (t : Fin cfg0.N) (acc : Vec Ideal S1024x2048 .f32) (r : Fin 1024) (s : Fin 2048)
    (M : Fin 8192) (f : Fin 4096) (kb : Fin 4)
    (hM : M.val = 1024 * (t.val / 8) + r.val) (hf : f.val = 2048 * (t.val / 4 % 2) + s.val) (hkb : kb.val = t.val % 4) :
    k0_pay2 (F := Ideal) (iblk m c 0 t) (iblk m c 2 t) (iblk m c 1 t) acc (ix2 r s)
      = acc (ix2 r s) + blockTerm m c M f kb := by
  refine (Payload.pay2_apply (iblk m c 0 t) (iblk m c 2 t) (iblk m c 1 t) acc r s).trans ?_
  refine congrArg (acc (ix2 r s) + ·) ?_
  unfold blockTerm blockSum
  refine Finset.sum_congr rfl fun q _ => ?_
  have hk : (chanOf kb q).val = 1024 * (t.val % 4) + q.val := by show 1024 * kb.val + q.val = _; rw [hkb]
  rw [iblk0_apply m c t r q M (chanOf kb q) hM hk, iblk1_apply m c t q s (chanOf kb q) f hk hf,
    iblk2_apply m c t q (chanOf kb q) hk,
    HostPre.rows_apply m c (rowB M) (rowS M) (chanOf kb q) M (by show M.val = 2048 * (M.val / 2048) + M.val % 2048; omega),
    HostPre.words_apply, HostPre.column_apply, select_bit]

/-- The partial sums the accumulator runs through along the contraction axis, starting from the zero word. -/
def psum (g : Fin 4 → EReal) : ℕ → EReal
  | 0 => wZero + g 0
  | 1 => wZero + g 0 + g 1
  | 2 => wZero + g 0 + g 1 + g 2
  | _ => wZero + g 0 + g 1 + g 2 + g 3

/-- At the first block of the contraction axis the accumulator ends at the zero word plus the first block term. -/
theorem first_step (c : Dev nD) (t : Fin cfg0.N) (h0 : t.val % 4 = 0) (r : Fin 1024) (s : Fin 2048) (M : Fin 8192) (f : Fin 4096)
    (hM : M.val = 1024 * (t.val / 8) + r.val) (hf : f.val = 2048 * (t.val / 4 % 2) + s.val) :
    (outsAt0 m c t.val t.isLt).2 (ix2 r s) = wZero + blockTerm m c M f 0 := by
  have h1 : ¬t.val % 4 = 3 := by omega
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)) (ix2 r s)).trans ?_
  refine (step_apply m c t (k0_pay1 (F := Ideal)) r s M f 0 hM hf (by show 0 = t.val % 4; omega)).trans ?_
  rw [Payload.pay1_apply]

/-- At a middle block the accumulator ends at what the point before left plus this block's term. -/
theorem middle_step (c : Dev nD) (t : Fin cfg0.N) (h0 : ¬t.val % 4 = 0) (h1 : ¬t.val % 4 = 3) (r : Fin 1024) (s : Fin 2048)
    (M : Fin 8192) (f : Fin 4096) (kb : Fin 4)
    (hM : M.val = 1024 * (t.val / 8) + r.val) (hf : f.val = 2048 * (t.val / 4 % 2) + s.val) (hkb : kb.val = t.val % 4) :
    (outsAt0 m c t.val t.isLt).2 (ix2 r s)
      = (outsAt0 m c (t.val - 1) (Nat.lt_of_le_of_lt (Nat.sub_le _ _) t.isLt)).2 (ix2 r s) + blockTerm m c M f kb := by
  rw [outsAt0_B m c t h0 h1]
  dsimp only
  refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2) (ix2 r s)).trans ?_
  exact step_apply m c t _ r s M f kb hM hf hkb

/-- At the last block the accumulator ends likewise, -/
theorem last_step (c : Dev nD) (t : Fin cfg0.N) (h0 : ¬t.val % 4 = 0) (h1 : t.val % 4 = 3) (r : Fin 1024) (s : Fin 2048)
    (M : Fin 8192) (f : Fin 4096)
    (hM : M.val = 1024 * (t.val / 8) + r.val) (hf : f.val = 2048 * (t.val / 4 % 2) + s.val) :
    (outsAt0 m c t.val t.isLt).2 (ix2 r s)
      = (outsAt0 m c (t.val - 1) (Nat.lt_of_le_of_lt (Nat.sub_le _ _) t.isLt)).2 (ix2 r s) + blockTerm m c M f 3 := by
  rw [outsAt0_C m c t h0 h1]
  dsimp only
  refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2) (ix2 r s)).trans ?_
  exact step_apply m c t _ r s M f 3 hM hf (by show 3 = t.val % 4; omega)

/-- and the output block receives the same. -/
theorem last_out (c : Dev nD) (t : Fin cfg0.N) (h0 : ¬t.val % 4 = 0) (h1 : t.val % 4 = 3) (r : Fin 1024) (s : Fin 2048)
    (M : Fin 8192) (f : Fin 4096)
    (hM : M.val = 1024 * (t.val / 8) + r.val) (hf : f.val = 2048 * (t.val / 4 % 2) + s.val) :
    (outsAt0 m c t.val t.isLt).1 (ix2 r s)
      = (outsAt0 m c (t.val - 1) (Nat.lt_of_le_of_lt (Nat.sub_le _ _) t.isLt)).2 (ix2 r s) + blockTerm m c M f 3 := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2) (ix2 r s)).trans ?_
  exact step_apply m c t _ r s M f 3 hM hf (by show 3 = t.val % 4; omega)

/-- THE ACCUMULATOR after point `n`, at entry `(r, s)`: the partial sum up to the point's contraction block of the
    block terms at the point's row and feature — by induction on the point. -/
theorem scratch_eq (c : Dev nD) : ∀ (n : ℕ) (h : n < cfg0.N) (r : Fin 1024) (s : Fin 2048) (M : Fin 8192) (f : Fin 4096),
    M.val = 1024 * (n / 8) + r.val → f.val = 2048 * (n / 4 % 2) + s.val →
    (outsAt0 m c n h).2 (ix2 r s) = psum (blockTerm m c M f) (n % 4)
  | 0, h, r, s, M, f, hM, hf => first_step m c ⟨0, h⟩ rfl r s M f hM hf
  | n + 1, h, r, s, M, f, hM, hf => by
    by_cases h0 : (n + 1) % 4 = 0
    · refine (first_step m c ⟨n + 1, h⟩ h0 r s M f hM hf).trans ?_
      rw [h0]; rfl
    · by_cases h3 : (n + 1) % 4 = 3
      · refine (last_step m c ⟨n + 1, h⟩ h0 h3 r s M f hM hf).trans ?_
        show (outsAt0 m c n _).2 (ix2 r s) + _ = _
        rw [scratch_eq c n (Nat.lt_of_succ_lt h) r s M f (by omega) (by omega), show n % 4 = 2 from by omega, h3]
        rfl
      · by_cases h1 : (n + 1) % 4 = 1
        · refine (middle_step m c ⟨n + 1, h⟩ h0 h3 r s M f 1 hM hf (by show 1 = (n + 1) % 4; omega)).trans ?_
          show (outsAt0 m c n _).2 (ix2 r s) + _ = _
          rw [scratch_eq c n (Nat.lt_of_succ_lt h) r s M f (by omega) (by omega), show n % 4 = 0 from by omega, h1]
          rfl
        · have h2 : (n + 1) % 4 = 2 := by omega
          refine (middle_step m c ⟨n + 1, h⟩ h0 h3 r s M f 2 hM hf (by show 2 = (n + 1) % 4; omega)).trans ?_
          show (outsAt0 m c n _).2 (ix2 r s) + _ = _
          rw [scratch_eq c n (Nat.lt_of_succ_lt h) r s M f (by omega) (by omega), show n % 4 = 1 from by omega, h2]
          rfl

/-- At the last block of the contraction axis the output block holds the kernel's arrangement. -/
theorem out_block (c : Dev nD) (t : Fin cfg0.N) (h3 : t.val % 4 = 3) (r : Fin 1024) (s : Fin 2048) (M : Fin 8192) (f : Fin 4096)
    (hM : M.val = 1024 * (t.val / 8) + r.val) (hf : f.val = 2048 * (t.val / 4 % 2) + s.val) :
    (outsAt0 m c t.val t.isLt).1 (ix2 r s) = rowsAt m c M f := by
  have h0 : ¬t.val % 4 = 0 := by omega
  have hpos : 0 < t.val := by omega
  refine (last_out m c t h0 h3 r s M f hM hf).trans ?_
  rw [scratch_eq m c (t.val - 1) (Nat.lt_of_le_of_lt (Nat.sub_le _ _) t.isLt) r s M f (by omega) (by omega), show (t.val - 1) % 4 = 2 from by omega,
    rowsAt_eq, Fin.sum_univ_four]
  show wZero + blockTerm m c M f 0 + blockTerm m c M f 1 + blockTerm m c M f 2 + blockTerm m c M f 3 = _
  rw [show wZero = 0 from Ideal.ofBits_zero_f32, zero_add]

end Cert.KernelIdeal.Accum

end
-- ==== Proof.KernelRun.lean ====
/-
  What the idealized kernel program leaves in its result, on the extended reals: the kernel's arrangement `kerForm`
  of the three arguments.

  The call writes the array of rows [8192, 4096] one block [1024, 2048] at a time: grid point `t` works on row block
  `t / 8` and feature block `t / 4 % 2`, and writes its block back exactly at the last block of the contraction
  axis, `t % 4 = 3`, when the block holds the kernel's arrangement at row `1024 · (t / 8) + r` and feature
  `2048 · (t / 4 % 2) + s`. The 8 · 2 blocks tile the array — entry `(M, f)` lies in the block written at
  `t = 8 · (M / 1024) + 4 · (f / 2048) + 3` — so after the call the whole array is `rowsOut`: the kernel's
  arrangement row by row. The program then reshapes the rows back to [4, 2048, 4096]: entry `(b, s, f)` is row
  `2048 · b + s` at feature `f`, and that row is the activation row `(b, s)`.
-/
import proofs.«152280_j56779467653691_2_alg».proof.Proof.Accum
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Accum Cert.EiMatmul

variable (m : (ℓ : Loc nD τ sig) → Buf (Elt Ideal) ℓ) (ρ : Dev nD → PrngReg)

/-! ## The array of rows after the call -/

/-- The kernel's arrangement as the whole array of rows: entry `(M, f)` is the arrangement at row `M`, feature `f`. -/
def rowsOut (c : Dev nD) : S8192x4096.Idx → EReal := fun j => rowsAt m c (j 0) (j 1)

/-- The output block's index at grid point `t`: row block `t / 8`, feature block `t / 4 % 2`. -/
theorem idx_facts : ∀ t : Fin cfg0.N, win0_3.index t (0 : Fin 2) = t.val / 8 ∧ win0_3.index t (1 : Fin 2) = t.val / 4 % 2 :=
  (by decide +kernel : ∀ t : Fin grid0.N, _)

/-- What a point that writes back writes is its block of `rowsOut`: entry `(r, s)` of the block sits at row
    `1024 · (t / 8) + r` and feature `2048 · (t / 4 % 2) + s` of the array. -/
theorem flushed_eq (c : Dev nD) (t : Fin cfg0.N) (hf : (cfg0.win 3).flush t = true) :
    (dats m 0 c).flushed 3 t = ((cfg0.win 3).blk t).view.read (Elt Ideal) (rowsOut m c) := by
  have h3 : t.val % 4 = 3 := (flush0_3 t).mp hf
  have hN : t.val < 64 := lt_of_lt_of_eq t.isLt (show cfg0.N = 64 from N_0)
  obtain ⟨e0, e1⟩ := idx_facts t
  show (cfg0.win 3).cut (grid0.coords t) ((dats m 0 c).after 3 t) = _
  rw [after0_3]
  funext y
  obtain ⟨r, s, rfl⟩ : ∃ (r : Fin 1024) (s : Fin 2048), y = ix2 r s := ⟨y 0, y 1, eq_ix2 y⟩
  rw [View.read_apply]
  have hr : r.val < 1024 := r.isLt
  have hs : s.val < 2048 := s.isLt
  refine (out_block m c t h3 r s ⟨1024 * (t.val / 8) + r.val, by omega⟩ ⟨2048 * (t.val / 4 % 2) + s.val, by omega⟩ rfl rfl).trans ?_
  show rowsAt m c _ _ = rowsAt m c (((cfg0.win 3).blk t).view.emb (ix2 r s) 0) (((cfg0.win 3).blk t).view.emb (ix2 r s) 1)
  congr 1
  · apply Fin.ext
    show 1024 * (t.val / 8) + r.val = win0_3.index t (0 : Fin 2) * 1024 + 1 * r.val
    rw [e0]; omega
  · apply Fin.ext
    show 2048 * (t.val / 4 % 2) + s.val = win0_3.index t (1 : Fin 2) * 2048 + 1 * s.val
    rw [e1]; omega

/-- An entry of the array is in point `t`'s block iff each coordinate is in the block's range on its axis. -/
theorem mem_blk (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v9).slice (win0_3.rect t)).set ↔ _
  rw [View.set_slice_whole, Rect.mem_set_unit]
  exact Iff.rfl

/-- The written blocks tile the array: entry `(M, f)` is in the block written at the last contraction block of row
    block `M / 1024` and feature block `f / 2048`. -/
theorem cover (i : S8192x4096.Idx) :
    ∃ t : Fin cfg0.N, (cfg0.win 3).flush t = true ∧ i ∈ ((cfg0.win 3).blk t).view.set := by
  have hN : cfg0.N = 64 := N_0
  have hi0 : (i 0).val < 8192 := (i 0).isLt
  have hi1 : (i 1).val < 4096 := (i 1).isLt
  have ht : 8 * ((i 0).val / 1024) + 4 * ((i 1).val / 2048) + 3 < cfg0.N := by rw [hN]; omega
  refine ⟨⟨8 * ((i 0).val / 1024) + 4 * ((i 1).val / 2048) + 3, ht⟩, (flush0_3 _).mpr (by show (8 * ((i 0).val / 1024) + 4 * ((i 1).val / 2048) + 3) % 4 = 3; omega), ?_⟩
  rw [mem_blk]
  obtain ⟨e0, e1⟩ := idx_facts ⟨8 * ((i 0).val / 1024) + 4 * ((i 1).val / 2048) + 3, ht⟩
  intro a
  match a with
  | ⟨0, _⟩ =>
    show win0_3.index _ (0 : Fin 2) * 1024 ≤ (i 0).val ∧ (i 0).val < win0_3.index _ (0 : Fin 2) * 1024 + 1024
    rw [e0]
    show (8 * ((i 0).val / 1024) + 4 * ((i 1).val / 2048) + 3) / 8 * 1024 ≤ (i 0).val ∧ (i 0).val < (8 * ((i 0).val / 1024) + 4 * ((i 1).val / 2048) + 3) / 8 * 1024 + 1024
    omega
  | ⟨1, _⟩ =>
    show win0_3.index _ (1 : Fin 2) * 2048 ≤ (i 1).val ∧ (i 1).val < win0_3.index _ (1 : Fin 2) * 2048 + 2048
    rw [e1]
    show (8 * ((i 0).val / 1024) + 4 * ((i 1).val / 2048) + 3) / 4 % 2 * 2048 ≤ (i 1).val ∧ (i 1).val < (8 * ((i 0).val / 1024) + 4 * ((i 1).val / 2048) + 3) / 4 % 2 * 2048 + 2048
    omega

/-- So after the call the array of rows is the kernel's arrangement, row by row. -/
theorem final_rows (c : Dev nD) : (dats m 0 c).arrAt 3 cfg0.N = rowsOut m c :=
  (dats m 0 c).arrAt_eq_of_cover 3 (rowsOut m c) (flushed_eq m c) cover

/-! ## The reshape after the call -/

/-- The result: the rows reshaped to [4, 2048, 4096]. Entry `(b, s, f)` is row `2048 · b + s` at feature `f` (the
    same row-major position), and that row's activation row is `(b, s)`. -/
theorem tail_eq (c : Dev nD) :
    Pipeline.afterTail₀ cfgs (dats m) 0 (V0 m) [hostOps1] c main_v10
      = kerForm (m ((c : Thread nD τ).loc main_arg0)) (m ((c : Thread nD τ).loc main_arg1)) (m ((c : Thread nD τ).loc main_arg2)) := by
  have hW : Pipeline.withArrays spec0 c (V0 m c) (fun w => (dats m 0 c).arrAt w cfg0.N) (Proc.devRef .tc (Pipeline.arrRef spec0 3)) = rowsOut m c :=
    (Pipeline.withArrays_arr spec0 launch0.win.arr_inj c _ _ 3).trans (final_rows m c)
  unfold Pipeline.afterTail₀
  show StableHlo.after hostOps1 _ (Proc.devRef .tc main_v10) = _
  after_results
  funext i
  obtain ⟨b, s, f, rfl⟩ : ∃ (b : Fin 4) (s : Fin 2048) (f : Fin 4096), i = ix3 b s f := ⟨i 0, i 1, i 2, eq_ix3 i⟩
  show shapeCast S4x2048x4096 (Pipeline.withArrays spec0 c (V0 m c) (fun w => (dats m 0 c).arrAt w cfg0.N) (Proc.devRef .tc (Pipeline.arrRef spec0 3))) Gen.shapeCasts_S8192x4096_S4x2048x4096 (ix3 b s f) = _
  rw [hW]
  have hb : b.val < 4 := b.isLt
  have hs : s.val < 2048 := s.isLt
  refine (shapeCast_apply _ _ (ix3 b s f) (ix2 (⟨2048 * b.val + s.val, by omega⟩ : Fin 8192) f) ?_).trans ?_
  · rw [Shape.rowMajor_val_three, Shape.rowMajor_val_two]
    show (2048 * b.val + s.val) * 4096 + f.val = (b.val * 2048 + s.val) * 4096 + f.val
    omega
  · show kerAt _ _ _ (rowB ⟨2048 * b.val + s.val, _⟩) (rowS ⟨2048 * b.val + s.val, _⟩) f = kerAt _ _ _ b s f
    congr 1
    · apply Fin.ext
      show (2048 * b.val + s.val) / 2048 = b.val
      omega
    · apply Fin.ext
      show (2048 * b.val + s.val) % 2048 = s.val
      omega

/-! ## The run -/

/-- Every weakly fair execution of the idealized kernel program terminates with its result at the kernel's arrangement
    of the three arguments, and the arguments unchanged. -/
theorem run : θ_run defs (onTc (τ := τ) (main (F := Ideal))) ⟨m, fun _ => 0, ρ⟩ fun r => ∀ c : Dev nD,
    r.2.mem ((c.tc : Thread nD τ).loc main_v10) = kerForm (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h c).2 main_v10 (Pipeline.mem_restRefs_of main_v10 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩) (run_main m ρ)

end Cert.KernelIdeal.KernelRun

end
-- ==== Proof.lean ====
/-
  A masked matrix product with excitatory and inhibitory input channels, on the extended reals.

  The arguments are activations `x` of shape [4, 2048, 4096], a connectivity mask `kern` of bits of shape
  [4096, 4096] (input channel by output feature) and a scalar `scale`. The first 3277 input channels are
  excitatory, the remaining 819 inhibitory and carry the factor -4. The reference multiplies the inhibitory
  channels' activations by -4, contracts the channel axis against the mask read as the numbers 0 and 1, and
  multiplies the result by the scale:

      out (b, s, f) = scale · ∑ₖ (x (b, s, k) or -4 · x (b, s, k)) · kern (k, f).

  The kernel program instead folds the channel factor and the scale into the weights: it forms the column
  `(1 or -4) · scale` per channel, and on a grid of 8 row blocks by 2 feature blocks by 4 blocks of the contraction
  axis accumulates, starting from zero,

      out (M, f) = ∑_{kb < 4} ∑_{q < 1024} x (M, 1024 kb + q) · (if kern (1024 kb + q, f) then factor · scale else 0)

  over the rows `M = 2048 b + s` of the activations reshaped to [8192, 4096], and reshapes back. The changes of float
  format inside the kernel are the identity on the extended reals. Every float input being finite (the
  precondition), every term is a real number, the scale moves through the finite sum, and the sum over 4096
  channels splits into the four blocks: the two results are one function of the arguments.

  The frames of the two kernel programs are the generated frame runs; the reference's frame is its generated run.
  The modules below this one: the two arrangements (Spec), the law joining them (Algebra), the reference's stages
  read as its arrangement and finiteness from the precondition (RefSide), the arrays the kernel's windows read
  (HostPre), the body's arithmetic at an entry (Payload), what each case of the body leaves (Pieces), the
  accumulator point by point (Accum), and the result array and the run (KernelRun).
-/
import proofs.«152280_j56779467653691_2_alg».proof.Defs
import proofs.«152280_j56779467653691_2_alg».proof.Proof.Gen.Kernel
import proofs.«152280_j56779467653691_2_alg».proof.Proof.Gen.Kernel.Frame
import proofs.«152280_j56779467653691_2_alg».proof.Proof.Gen.KernelIdeal
import proofs.«152280_j56779467653691_2_alg».proof.Proof.Gen.KernelIdeal.Frame
import proofs.«152280_j56779467653691_2_alg».proof.Proof.Gen.ReferenceIdeal
import proofs.«152280_j56779467653691_2_alg».proof.Proof.Gen.ReferenceIdeal.Run
import proofs.«152280_j56779467653691_2_alg».proof.Proof.Gen.ReferenceIdeal.Read
import proofs.«152280_j56779467653691_2_alg».proof.Proof.Gen.Pre_finite_inputs
import proofs.«152280_j56779467653691_2_alg».proof.Proof.Algebra
import proofs.«152280_j56779467653691_2_alg».proof.Proof.RefSide
import proofs.«152280_j56779467653691_2_alg».proof.Proof.KernelRun
import Idealize.ShloMosaic.Adequacy
import Idealize.ShloMosaic.Init

noncomputable section

open Idealize.ShloMosaic Idealize.ShloMosaic.TcCoe Idealize.SL.Sem

namespace Cert.Proof.Claims

open Cert.EiMatmul

/-- The word-level kernel program terminates, faults nowhere and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- On the extended reals the kernel program's result is the blocked sum with the scale folded into the masked
    weights, the reference's the scale times the sum over all channels of the sign-split activations against the
    mask; every float input being finite, all terms are real numbers and the two are one function. Both runs are
    stated at the reference's arrangement of the kernel program's own arguments. -/
theorem algebraic : Cert.algebraic_KernelIdeal_ReferenceIdeal := by
  intro m ρ m' ρ' hpre hagree
  refine ⟨fun c => refForm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.KernelRun.run m ρ)
    obtain ⟨hx, hs⟩ := finite_of_pre _ _ _ (hpre c)
    exact kerForm_eq_refForm _ _ _ hx hs
  · refine (θ_run Cert.ReferenceIdeal.defs _ _).mono (fun _ h c => ⟨?_, (h c).2⟩)
      (Cert.ReferenceIdeal.Value.run (F := Ideal) m' ρ')
    rw [(h c).1, Cert.ReferenceIdeal.Read.val_main_v8_eq, ref_eq, (hagree c).1, (hagree c).2.1, (hagree c).2.2]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
